-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) (main_arg1 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  main_v8
-- ==== Kernel.lean ====
abbrev S16x1x1024x1024 : Shape := ⟨4, ![16, 1, 1024, 1024]⟩
abbrev S1x1 : Shape := ⟨2, ![1, 1]⟩
abbrev S1x1x1024x1024 : Shape := ⟨4, ![1, 1, 1024, 1024]⟩
abbrev S1024x1024 : Shape := ⟨2, ![1024, 1024]⟩
abbrev S2x1024 : Shape := ⟨2, ![2, 1024]⟩
abbrev S1026x1024 : Shape := ⟨2, ![1026, 1024]⟩
abbrev S1028x1024 : Shape := ⟨2, ![1028, 1024]⟩
abbrev S1028x2 : Shape := ⟨2, ![1028, 2]⟩
abbrev S1028x1026 : Shape := ⟨2, ![1028, 1026]⟩
abbrev S1028x1028 : Shape := ⟨2, ![1028, 1028]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  concatenates_S2x1024_S1024x1024_S1026x1024_d0 : Shape.Concatenates [S2x1024, S1024x1024] S1026x1024 0
  concatenates_S1026x1024_S2x1024_S1028x1024_d0 : Shape.Concatenates [S1026x1024, S2x1024] S1028x1024 0
  concatenates_S1028x2_S1028x1024_S1028x1026_d1 : Shape.Concatenates [S1028x2, S1028x1024] S1028x1026 1
  concatenates_S1028x1026_S1028x2_S1028x1028_d1 : Shape.Concatenates [S1028x1026, S1028x2] S1028x1028 1
  slices_S1028x1028_o0_0_S1024x1024 : S1028x1028.Slices ![0, 0] S1024x1024
  slices_S1028x1028_o0_2_S1024x1024 : S1028x1028.Slices ![0, 2] S1024x1024
  slices_S1028x1028_o0_4_S1024x1024 : S1028x1028.Slices ![0, 4] S1024x1024
  slices_S1028x1028_o2_0_S1024x1024 : S1028x1028.Slices ![2, 0] S1024x1024
  slices_S1028x1028_o2_4_S1024x1024 : S1028x1028.Slices ![2, 4] S1024x1024
  slices_S1028x1028_o4_0_S1024x1024 : S1028x1028.Slices ![4, 0] S1024x1024
  slices_S1028x1028_o4_2_S1024x1024 : S1028x1028.Slices ![4, 2] S1024x1024
  slices_S1028x1028_o4_4_S1024x1024 : S1028x1028.Slices ![4, 4] S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S16x1x1024x1024.size a
  hwx0_0 : ∀ i : grid0.Coords, EltTy.bits .f32 = 32 ∨ (Rect.block (s := S16x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x1x1024x1024.size a
  hwx0_1 : ∀ i : grid0.Coords, EltTy.bits .f32 = 32 ∨ (Rect.block (s := S16x1x1024x1024) S1x1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S_ : Shape := ⟨0, ![]⟩
abbrev S16x1x1028x1028 : Shape := ⟨4, ![16, 1, 1028, 1028]⟩

abbrev nBuf : Space → Nat
  | .hbm => 68
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S16x1x1024x1024, .f32⟩
  | .hbm, ⟨3, _⟩ => ⟨S_, .f32⟩
  | .hbm, ⟨4, _⟩ => ⟨S16x1x1024x1024, .f32⟩
  | .hbm, ⟨5, _⟩ => ⟨S16x1x1024x1024, .f32⟩
  | .hbm, ⟨6, _⟩ => ⟨S16x1x1024x1024, .f32⟩
  | .hbm, ⟨7, _⟩ => ⟨S16x1x1024x1024, .f32⟩
  | .hbm, ⟨8, _⟩ => ⟨S_, .f32⟩
  | .hbm, ⟨9, _⟩ => ⟨S16x1x1024x1024, .f32⟩
  | .hbm, ⟨10, _⟩ => ⟨S16x1x1024x1024, .f32⟩
  | .hbm, ⟨11, _⟩ => ⟨S16x1x1024x1024, .f32⟩
  | .hbm, ⟨12, _⟩ => ⟨S_, .f32⟩
  | .hbm, ⟨13, _⟩ => ⟨S16x1x1024x1024, .f32⟩
  | .hbm, ⟨14, _⟩ => ⟨S16x1x1024x1024, .f32⟩
  | .hbm, ⟨15, _⟩ => ⟨S16x1x1024x1024, .f32⟩
  | .hbm, ⟨16, _⟩ => ⟨S16x1x1024x1024, .f32⟩
  | .hbm, ⟨17, _⟩ => ⟨S16x1x1024x1024, .f32⟩
  | .hbm, ⟨18, _⟩ => ⟨S_, .i32⟩
  | .hbm, ⟨19, _⟩ => ⟨S_, .f32⟩
  | .hbm, ⟨20, _⟩ => ⟨S16x1x1028x1028, .f32⟩
  | .hbm, ⟨21, _⟩ => ⟨S_, .f32⟩
  | .hbm, ⟨22, _⟩ => ⟨S16x1x1024x1024, .f32⟩
  | .hbm, ⟨23, _⟩ => ⟨S16x1x1024x1024, .f32⟩
  | .hbm, ⟨24, _⟩ => ⟨S16x1x1024x1024, .f32⟩
  | .hbm, ⟨25, _⟩ => ⟨S16x1x1024x1024, .f32⟩
  | .hbm, ⟨26, _⟩ => ⟨S16x1x1024x1024, .f32⟩
  | .hbm, ⟨27, _⟩ => ⟨S16x1x1024x1024, .f32⟩
  | .hbm, ⟨28, _⟩ => ⟨S16x1x1024x1024, .f32⟩
  | .hbm, ⟨29, _⟩ => ⟨S16x1x1024x1024, .f32⟩
  | .hbm, ⟨30, _⟩ => ⟨S16x1x1024x1024, .f32⟩
  | .hbm, ⟨31, _⟩ => ⟨S16x1x1024x1024, .f32⟩
  | .hbm, ⟨32, _⟩ => ⟨S16x1x1024x1024, .f32⟩
  | .hbm, ⟨33, _⟩ => ⟨S16x1x1024x1024, .f32⟩
  | .hbm, ⟨34, _⟩ => ⟨S16x1x1024x1024, .f32⟩
  | .hbm, ⟨35, _⟩ => ⟨S16x1x1024x1024, .f32⟩
  | .hbm, ⟨36, _⟩ => ⟨S16x1x1024x1024, .f32⟩
  | .hbm, ⟨37, _⟩ => ⟨S16x1x1024x1024, .f32⟩
  | .hbm, ⟨38, _⟩ => ⟨S16x1x1024x1024, .f32⟩
  | .hbm, ⟨39, _⟩ => ⟨S16x1x1024x1024, .f32⟩
  | .hbm, ⟨40, _⟩ => ⟨S16x1x1024x1024, .f32⟩
  | .hbm, ⟨41, _⟩ => ⟨S16x1x1024x1024, .f32⟩
  | .hbm, ⟨42, _⟩ => ⟨S16x1x1024x1024, .f32⟩
  | .hbm, ⟨43, _⟩ => ⟨S16x1x1024x1024, .f32⟩
  | .hbm, ⟨44, _⟩ => ⟨S16x1x1024x1024, .f32⟩
  | .hbm, ⟨45, _⟩ => ⟨S16x1x1024x1024, .f32⟩
  | .hbm, ⟨46, _⟩ => ⟨S16x1x1024x1024, .f32⟩
  | .hbm, ⟨47, _⟩ => ⟨S16x1x1024x1024, .f32⟩
  | .hbm, ⟨48, _⟩ => ⟨S16x1x1024x1024, .f32⟩
  | .hbm, ⟨49, _⟩ => ⟨S16x1x1024x1024, .f32⟩
  | .hbm, ⟨50, _⟩ => ⟨S16x1x1024x1024, .f32⟩
  | .hbm, ⟨51, _⟩ => ⟨S16x1x1024x1024, .f32⟩
  | .hbm, ⟨52, _⟩ => ⟨S16x1x1024x1024, .f32⟩
  | .hbm, ⟨53, _⟩ => ⟨S16x1x1024x1024, .f32⟩
  | .hbm, ⟨54, _⟩ => ⟨S16x1x1024x1024, .f32⟩
  | .hbm, ⟨55, _⟩ => ⟨S_, .f32⟩
  | .hbm, ⟨56, _⟩ => ⟨S16x1x1024x1024, .f32⟩
  | .hbm, ⟨57, _⟩ => ⟨S16x1x1024x1024, .i1⟩
  | .hbm, ⟨58, _⟩ => ⟨S_, .f32⟩
  | .hbm, ⟨59, _⟩ => ⟨S_, .f32⟩
  | .hbm, ⟨60, _⟩ => ⟨S16x1x1024x1024, .f32⟩
  | .hbm, ⟨61, _⟩ => ⟨S16x1x1024x1024, .f32⟩
  | .hbm, ⟨62, _⟩ => ⟨S16x1x1024x1024, .f32⟩
  | .hbm, ⟨63, _⟩ => ⟨S16x1x1024x1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩

abbrev nD : Nat := 1
abbrev τ : Topo := Topo.v7x

variable {F : FTy → Type} [FloatOps F]

class Facts₀ : Prop where
  bcast_S_S16x1x1024x1024 : S_.BroadcastsInDim S16x1x1024x1024 (![] : Fin 0 → Fin S16x1x1024x1024.rank)
  pads_S16x1x1024x1024_S16x1x1028x1028_000_000_220_220 : S16x1x1024x1024.Pads (![0, 0, 2, 2] : Fin 4 → Nat) ![0, 0, 2, 2] ![0, 0, 0, 0] S16x1x1028x1028
  h_S_ : 0 < S_.numel
  slices_S16x1x1028x1028_S16x1x1024x1024_0_0_0_0 : S16x1x1028x1028.Slices ![0, 0, 0, 0] S16x1x1024x1024
  slices_S16x1x1028x1028_S16x1x1024x1024_0_0_0_2 : S16x1x1028x1028.Slices ![0, 0, 0, 2] S16x1x1024x1024
  slices_S16x1x1028x1028_S16x1x1024x1024_0_0_0_4 : S16x1x1028x1028.Slices ![0, 0, 0, 4] S16x1x1024x1024
  slices_S16x1x1028x1028_S16x1x1024x1024_0_0_2_0 : S16x1x1028x1028.Slices ![0, 0, 2, 0] S16x1x1024x1024
  slices_S16x1x1028x1028_S16x1x1024x1024_0_0_2_4 : S16x1x1028x1028.Slices ![0, 0, 2, 4] S16x1x1024x1024
  slices_S16x1x1028x1028_S16x1x1024x1024_0_0_4_0 : S16x1x1028x1028.Slices ![0, 0, 4, 0] S16x1x1024x1024
  slices_S16x1x1028x1028_S16x1x1024x1024_0_0_4_2 : S16x1x1028x1028.Slices ![0, 0, 4, 2] S16x1x1024x1024
  slices_S16x1x1028x1028_S16x1x1024x1024_0_0_4_4 : S16x1x1028x1028.Slices ![0, 0, 4, 4] S16x1x1024x1024
  reducesTo_S16x1x1024x1024_S_d0_1_2_3 : S16x1x1024x1024.ReducesTo [0, 1, 2, 3] S_

variable [Facts₀]

class Facts : Prop extends Facts₀ where

variable [Facts]
-- ==== Proof.PadRead.lean ====
/-
  A border of two rows and two columns around a 1024 × 1024 image, read at an index.

  The bordered image at row `R`, column `C` (both below 1028) is the image at `(R - 2, C - 2)` when
  `2 ≤ R, C < 1026`, and the border value otherwise. Two spellings of it are read here: four two-piece
  concatenations (border rows above, border rows below, border columns left, border columns right), and
  one rank-4 padding of a stack of such images along its last two axes.
-/
import Idealize.ShloMosaic.Lib.ValueIdx
import Idealize.ShloMosaic.Lib.Pipeline.Value
import Idealize.ShloMosaic.Lib.KernelVsHost

noncomputable section

namespace Cert.PixLoss

open Idealize.ShloMosaic Idealize.ShloMosaic.ValueIdx

variable {α : Type}

/-- The image `P` with a border of width two holding `z`, at row `R` and column `C` of the bordered frame. -/
def bordered (z : α) (P : Fin 1024 → Fin 1024 → α) (R C : ℕ) : α :=
  if h : (2 ≤ R ∧ R < 1026) ∧ (2 ≤ C ∧ C < 1026) then P ⟨R - 2, by omega⟩ ⟨C - 2, by omega⟩ else z

/-- Border rows joined above and below, then border columns joined left and right: the bordered image. -/
theorem concat_border_apply (z : α) (x : (⟨2, ![1024, 1024]⟩ : Shape).Idx → α)
    (h1 : Shape.Concatenates [⟨2, ![2, 1024]⟩, ⟨2, ![1024, 1024]⟩] ⟨2, ![1026, 1024]⟩ 0)
    (h2 : Shape.Concatenates [⟨2, ![1026, 1024]⟩, ⟨2, ![2, 1024]⟩] ⟨2, ![1028, 1024]⟩ 0)
    (h3 : Shape.Concatenates [⟨2, ![1028, 2]⟩, ⟨2, ![1028, 1024]⟩] ⟨2, ![1028, 1026]⟩ 1)
    (h4 : Shape.Concatenates [⟨2, ![1028, 1026]⟩, ⟨2, ![1028, 2]⟩] ⟨2, ![1028, 1028]⟩ 1)
    (R C : Fin 1028) :
    concatenate ⟨2, ![1028, 1028]⟩ 1
      [⟨⟨2, ![1028, 1026]⟩, concatenate ⟨2, ![1028, 1026]⟩ 1
          [⟨⟨2, ![1028, 2]⟩, broadcast ⟨2, ![1028, 2]⟩ z⟩,
           ⟨⟨2, ![1028, 1024]⟩, concatenate ⟨2, ![1028, 1024]⟩ 0
              [⟨⟨2, ![1026, 1024]⟩, concatenate ⟨2, ![1026, 1024]⟩ 0
                  [⟨⟨2, ![2, 1024]⟩, broadcast ⟨2, ![2, 1024]⟩ z⟩, ⟨⟨2, ![1024, 1024]⟩, x⟩] h1⟩,
               ⟨⟨2, ![2, 1024]⟩, broadcast ⟨2, ![2, 1024]⟩ z⟩] h2⟩] h3⟩,
       ⟨⟨2, ![1028, 2]⟩, broadcast ⟨2, ![1028, 2]⟩ z⟩] h4 (ix2 R C)
      = bordered z (fun r c => x (ix2 r c)) R.val C.val := by
  unfold bordered
  by_cases hC1 : C.val < 1026
  · refine (concatenate_pair_apply_left 1 _ _ h4 (ix2 R C) rfl (ix2 R ⟨C.val, hC1⟩) (fun b => by
      match b with
      | ⟨0, _⟩ => rfl
      | ⟨1, _⟩ => rfl)).trans ?_
    by_cases hC2 : 2 ≤ C.val
    · refine (concatenate_pair_apply_right 1 _ _ h3 (ix2 R ⟨C.val, hC1⟩) rfl rfl (ix2 R ⟨C.val - 2, by omega⟩) (fun b hb => by
        match b with
        | ⟨0, _⟩ => rfl
        | ⟨1, _⟩ => exact absurd rfl hb) (by show C.val - 2 + 2 = C.val; omega)).trans ?_
      by_cases hR1 : R.val < 1026
      · refine (concatenate_pair_apply_left 0 _ _ h2 (ix2 R ⟨C.val - 2, by omega⟩) rfl (ix2 ⟨R.val, hR1⟩ ⟨C.val - 2, by omega⟩) (fun b => by
          match b with
          | ⟨0, _⟩ => rfl
          | ⟨1, _⟩ => rfl)).trans ?_
        by_cases hR2 : 2 ≤ R.val
        · refine (concatenate_pair_apply_right 0 _ _ h1 (ix2 ⟨R.val, hR1⟩ ⟨C.val - 2, by omega⟩) rfl rfl
            (ix2 ⟨R.val - 2, by omega⟩ ⟨C.val - 2, by omega⟩) (fun b hb => by
              match b with
              | ⟨0, _⟩ => exact absurd rfl hb
              | ⟨1, _⟩ => rfl) (by show R.val - 2 + 2 = R.val; omega)).trans ?_
          rw [dif_pos ⟨⟨hR2, hR1⟩, ⟨hC2, hC1⟩⟩]
        · refine (concatenate_pair_apply_left 0 _ _ h1 (ix2 ⟨R.val, hR1⟩ ⟨C.val - 2, by omega⟩) rfl
            (ix2 ⟨R.val, by omega⟩ ⟨C.val - 2, by omega⟩) (fun b => by
              match b with
              | ⟨0, _⟩ => rfl
              | ⟨1, _⟩ => rfl)).trans ?_
          rw [dif_neg (fun h => hR2 h.1.1)]
          rfl
      · refine (concatenate_pair_apply_right 0 _ _ h2 (ix2 R ⟨C.val - 2, by omega⟩) rfl rfl
          (ix2 ⟨R.val - 1026, by have := R.isLt; omega⟩ ⟨C.val - 2, by omega⟩) (fun b hb => by
            match b with
            | ⟨0, _⟩ => exact absurd rfl hb
            | ⟨1, _⟩ => rfl) (by show R.val - 1026 + 1026 = R.val; omega)).trans ?_
        rw [dif_neg (fun h => hR1 h.1.2)]
        rfl
    · refine (concatenate_pair_apply_left 1 _ _ h3 (ix2 R ⟨C.val, hC1⟩) rfl (ix2 R ⟨C.val, by omega⟩) (fun b => by
        match b with
        | ⟨0, _⟩ => rfl
        | ⟨1, _⟩ => rfl)).trans ?_
      rw [dif_neg (fun h => hC2 h.2.1)]
      rfl
  · refine (concatenate_pair_apply_right 1 _ _ h4 (ix2 R C) rfl rfl (ix2 R ⟨C.val - 1026, by have := C.isLt; omega⟩) (fun b hb => by
      match b with
      | ⟨0, _⟩ => rfl
      | ⟨1, _⟩ => exact absurd rfl hb) (by show C.val - 1026 + 1026 = C.val; omega)).trans ?_
    rw [dif_neg (fun h => hC1 h.2.2)]
    rfl

/-- A stack of sixteen one-channel images padded by two along its last two axes, read at image `b`: the bordered
    image, the border holding the padding value. -/
theorem pad_border_apply (z : (⟨0, ![]⟩ : Shape).Idx → α) (x : (⟨4, ![16, 1, 1024, 1024]⟩ : Shape).Idx → α)
    (h : (⟨4, ![16, 1, 1024, 1024]⟩ : Shape).Pads ![0, 0, 2, 2] ![0, 0, 2, 2] ![0, 0, 0, 0] ⟨4, ![16, 1, 1028, 1028]⟩)
    (hu : 0 < (⟨0, ![]⟩ : Shape).numel) (b : Fin 16) (u : Fin 1) (R C : Fin 1028) :
    pad ⟨4, ![16, 1, 1028, 1028]⟩ ![0, 0, 2, 2] ![0, 0, 2, 2] ![0, 0, 0, 0] x z h hu (ix4 b u R C)
      = bordered (z ix0) (fun r c => x (ix4 b u r c)) R.val C.val := by
  unfold bordered
  have hz : z (Shape.Idx.first hu) = z ix0 := congrArg z (eq_ix0 _)
  by_cases hin : (2 ≤ R.val ∧ R.val < 1026) ∧ (2 ≤ C.val ∧ C.val < 1026)
  · rw [dif_pos hin]
    refine pad_apply_of_inside _ _ _ x z h hu (ix4 b u R C) (ix4 b u ⟨R.val - 2, by omega⟩ ⟨C.val - 2, by omega⟩) (fun a => ?_)
    match a with
    | ⟨0, _⟩ => show b.val = 0 + b.val * (0 + 1); omega
    | ⟨1, _⟩ => show u.val = 0 + u.val * (0 + 1); omega
    | ⟨2, _⟩ => show R.val = 2 + (R.val - 2) * (0 + 1); omega
    | ⟨3, _⟩ => show C.val = 2 + (C.val - 2) * (0 + 1); omega
  · rw [dif_neg hin, ← hz]
    by_cases hR : 2 ≤ R.val ∧ R.val < 1026
    · refine pad_apply_of_not_inside _ _ _ x z h hu (ix4 b u R C) (3 : Fin 4) (fun hc => hin ⟨hR, ?_⟩)
      have hc' : 2 ≤ C.val ∧ (C.val - 2) % (0 + 1) = 0 ∧ (C.val - 2) / (0 + 1) < 1024 := hc
      omega
    · refine pad_apply_of_not_inside _ _ _ x z h hu (ix4 b u R C) (2 : Fin 4) (fun hc => hR ?_)
      have hc' : 2 ≤ R.val ∧ (R.val - 2) % (0 + 1) = 0 ∧ (R.val - 2) / (0 + 1) < 1024 := hc
      omega

end Cert.PixLoss

end
-- ==== Proof.Spec.lean ====
/-
  The quantity both programs compute, as one function of the two argument arrays on the extended reals.

  For one 1024 × 1024 image pair (target `Y`, prediction `P`) the loss at pixel (r, c) is
    spread · gate + bce,
  where `spread` is the largest absolute difference between `P r c` and its eight neighbours two pixels away
  (a neighbour outside the image counts as 0, and the maximum starts from 0), `gate` keeps `P r c` when it is at least
  one half and is 0 otherwise, and `bce` is the cross-entropy `-(y · max (log p) (-100) + (1 - y) · max (log (1 + (-p))) (-100))`.
  The result is the sum of the pixel losses over sixteen images, divided by 2²⁴ (the number of pixels).
-/
import Idealize.ShloMosaic.PureOps.Ideal
import Idealize.ShloMosaic.PureOps.Ideal.Laws
import Idealize.ShloMosaic.Lib.ValueIdx
import proofs.«122690_j28776280883544_1_alg».proof.Proof.PadRead

noncomputable section

namespace Cert.PixLoss

open Idealize.ShloMosaic Idealize.ShloMosaic.ValueIdx

/-- One image: a value per row and column. -/
abbrev Img := Fin 1024 → Fin 1024 → EReal

/-- The absolute difference `|p - n|`, as the larger of the difference and its negation. -/
def dev (p n : EReal) : EReal := max (p - n) (-(p - n))

/-- The neighbour of pixel (r, c) at offset (dy - 2, dx - 2), zero outside the image. -/
def nbr (P : Img) (dy dx : ℕ) (r c : Fin 1024) : EReal := bordered 0 P (r.val + dy) (c.val + dx)

/-- The largest absolute difference to the eight neighbours at distance two, starting from 0. -/
def spread (P : Img) (r c : Fin 1024) : EReal :=
  max (max (max (max (max (max (max (max 0
    (dev (P r c) (nbr P 0 0 r c))) (dev (P r c) (nbr P 0 2 r c))) (dev (P r c) (nbr P 0 4 r c)))
    (dev (P r c) (nbr P 2 0 r c))) (dev (P r c) (nbr P 2 4 r c)))
    (dev (P r c) (nbr P 4 0 r c))) (dev (P r c) (nbr P 4 2 r c))) (dev (P r c) (nbr P 4 4 r c))

/-- The prediction where it is at least one half, 0 elsewhere. -/
def gate (p : EReal) : EReal := Scalar.select (Ideal.cmp .oge p (Ideal.ofBits .f32 0x3F000000#32)) p 0

/-- Binary cross-entropy with both logarithms clamped below at -100. -/
def bce (y p : EReal) : EReal :=
  -(y * max (Ideal.log p) (Ideal.ofBits .f32 0xC2C80000#32)
    + (Ideal.ofBits .f32 0x3F800000#32 - y) * max (Ideal.log1p (-p)) (Ideal.ofBits .f32 0xC2C80000#32))

/-- The loss at one pixel. -/
def pixel (Y P : Img) (r c : Fin 1024) : EReal := spread P r c * gate (P r c) + bce (Y r c) (P r c)

/-- One image's losses added up, row by row. -/
def imageSum (Y P : Img) : EReal := ∑ r : Fin 1024, ∑ c : Fin 1024, pixel Y P r c

/-- A stack of sixteen one-channel images. -/
abbrev Stack := (⟨4, ![16, 1, 1024, 1024]⟩ : Shape).Idx → EReal

/-- Image `b` of a stack. -/
def img (A : Stack) (b : Fin 16) : Img := fun r c => A (ix4 b (0 : Fin 1) r c)

/-- Image number `k` of a stack's losses added up, 0 past the last image. -/
def imageSumN (T P : Stack) (k : ℕ) : EReal := if h : k < 16 then imageSum (img T ⟨k, h⟩) (img P ⟨k, h⟩) else 0

/-- The mean loss: all sixteen images' sums, over 2²⁴. -/
def meanLoss (T P : Stack) : EReal :=
  Ideal.div (∑ b : Fin 16, imageSum (img T b) (img P b)) (Ideal.ofBits .f32 0x4B800000#32)

/-- The sixteen images' sums counted by number are the sum over the images. -/
theorem sum_imageSumN (T P : Stack) :
    ∑ k ∈ Finset.range 16, imageSumN T P k = ∑ b : Fin 16, imageSum (img T b) (img P b) := by
  rw [← Fin.sum_univ_eq_sum_range (fun k => imageSumN T P k) 16]
  refine Finset.sum_congr rfl fun b _ => ?_
  unfold imageSumN
  rw [dif_pos b.isLt]

/-- A running total that starts at `0 + s 0` and adds `s (n + 1)` at step `n + 1` is, after step `n`, the sum of the
    first `n + 1` terms. -/
theorem running_total {M : Type*} [AddCommMonoid M] (N : ℕ) (s A : ℕ → M) (h0 : A 0 = 0 + s 0)
    (hs : ∀ n, n + 1 < N → A (n + 1) = A n + s (n + 1)) : ∀ n, n < N → A n = ∑ k ∈ Finset.range (n + 1), s k
  | 0, _ => by rw [h0, zero_add, Finset.sum_range_one]
  | n + 1, h => by
    rw [hs n h, running_total N s A h0 hs n (Nat.lt_of_succ_lt h), Finset.sum_range_succ s (n + 1)]

end Cert.PixLoss

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.LibTileStats.lean ====
/-
  General lemmas for sums taken tile by tile.

  * A lane reduction along the FIRST axis of an [a, b] array of extended reals, read at a column: the column's sum.
  * A sum over m · n rows is the sum over m tiles of the sums over each tile's n rows.
  * A sum over the first k + 1 tiles is the sum over the first k tiles plus tile k's.
-/
import Idealize.ShloMosaic.PureOps.Ideal.Laws
import Idealize.ShloMosaic.Lib.ValueIdx
import Mathlib.Algebra.BigOperators.Fin
import Mathlib.Logic.Equiv.Fin.Basic

noncomputable section

namespace Cert.Lib.TileStats

open Idealize.ShloMosaic Idealize.ShloMosaic.ValueIdx

/-- A sum over the first axis of an `[a, b]` array of extended reals, read at column `q`: the column's sum. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ y : Fin a, src (ix2 y q) := by
  refine (Ideal.multiReduction_add_single src acc h hφ hacc (ix1 q)).trans ?_
  refine Finset.sum_congr rfl fun k _ => congrArg src (funext fun ax => Fin.ext ?_)
  match ax with
  | ⟨0, _⟩ => rfl
  | ⟨1, _⟩ => rfl

/-- The same for a single-precision array whose accumulator is the zero pattern, the proof argument typed as it is printed. -/
theorem colSum_f32_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ y : Fin a, src (ix2 y q) :=
  colSum_apply src _ h hφ hacc q

/-- Row `y` of tile `t` among tiles of `n` rows, kept below `N` by a remainder that does nothing on a real tile. -/
def tileRow (N n : ℕ) (hN : 0 < N) (t : ℕ) (y : Fin n) : Fin N := ⟨(t * n + y.val) % N, Nat.mod_lt _ hN⟩

theorem tileRow_val {N n : ℕ} (hN : 0 < N) (t : ℕ) (y : Fin n) (h : t * n + y.val < N) :
    (tileRow N n hN t y).val = t * n + y.val := Nat.mod_eq_of_lt h

/-- A sum over `m · n` rows, tile by tile. -/
theorem sum_tiles {M : Type*} [AddCommMonoid M] (m n N : ℕ) (hmn : m * n = N) (hN : 0 < N) (f : Fin N → M) :
    ∑ r : Fin N, f r = ∑ t ∈ Finset.range m, ∑ y : Fin n, f (tileRow N n hN t y) := by
  subst hmn
  rw [← Fin.sum_univ_eq_sum_range (fun t => ∑ y : Fin n, f (tileRow (m * n) n hN t y)) m]
  rw [← Equiv.sum_comp finProdFinEquiv f, Fintype.sum_prod_type]
  refine Finset.sum_congr rfl fun t _ => Finset.sum_congr rfl fun y _ => congrArg f (Fin.ext ?_)
  have hlt : t.val * n + y.val < m * n := by
    have h1 : t.val + 1 ≤ m := t.isLt
    calc t.val * n + y.val < t.val * n + n := by have := y.isLt; omega
      _ = (t.val + 1) * n := by ring
      _ ≤ m * n := Nat.mul_le_mul_right n h1
  rw [tileRow_val hN t.val y hlt]
  show y.val + n * t.val = t.val * n + y.val
  rw [Nat.mul_comm, Nat.add_comm]

/-- One more tile. -/
theorem sum_range_succ_tile {M : Type*} [AddCommMonoid M] (g : ℕ → M) (k : ℕ) :
    ∑ t ∈ Finset.range (k + 1 + 1), g t = (∑ t ∈ Finset.range (k + 1), g t) + g (k + 1) :=
  Finset.sum_range_succ g (k + 1)

end Cert.Lib.TileStats

end
-- ==== Proof.KernelPay.lean ====
/-
  The kernel body's arithmetic at the extended reals, read at an index.

  One grid point sees one image pair: block `yt` of the targets and block `yp` of the predictions, each of shape
  [1, 1, 1024, 1024]. The body turns the prediction block into a [1024, 1024] image, surrounds it with a border of
  two zeros, forms the pixel losses, adds each row up, adds the row sums up, and adds that total to the running
  value it finds in its [1, 1] output block. Read at the output block's one index, what it stores is the running value
  plus the image pair's sum of pixel losses (`Cert.PixLoss.imageSum`).
-/
import proofs.«122690_j28776280883544_1_alg».proof.Proof.Gen.KernelIdeal.Skeleton
import proofs.«122690_j28776280883544_1_alg».proof.Proof.Spec
import proofs.«122690_j28776280883544_1_alg».proof.Proof.LibRowOps
import proofs.«122690_j28776280883544_1_alg».proof.Proof.LibTileStats
import Idealize.ShloMosaic.Lib.ValueIdx
import Idealize.ShloMosaic.Lib.Pipeline.Value
import Idealize.ShloMosaic.PureOps.Ideal.Laws

noncomputable section

namespace Cert.KernelIdeal.PayValue

open Idealize.ShloMosaic Idealize.ShloMosaic.ValueIdx
open Cert.KernelIdeal Cert.KernelIdeal.Gen Cert.PixLoss

/-- A [1, 1, 1024, 1024] block as an image. -/
def blkImg (v : Vec Ideal S1x1x1024x1024 .f32) : Img := fun r c => v (ix4 (0 : Fin 1) (0 : Fin 1) r c)

/-- The block reshaped to [1024, 1024] reads, at (r, c), the block at (0, 0, r, c). -/
theorem pay3_apply (v3 : Vec Ideal S1x1x1024x1024 .f32) (r c : Fin 1024) :
    k0_pay3 v3 (ix2 r c) = blkImg v3 r c := by
  unfold k0_pay3 blkImg
  exact shapeCast_apply v3 _ (ix2 r c) (ix4 (0 : Fin 1) (0 : Fin 1) r c) (by
    rw [Shape.rowMajor_val_four, Shape.rowMajor_val_two]
    show ((0 * 1 + 0) * 1024 + r.val) * 1024 + c.val = r.val * 1024 + c.val
    omega)

/-- The integer 0 converted to a float is the real number 0. -/
theorem sitofp_zero : Scalar.sitofp (F := Ideal) .f32 (0#32 : BitVec 32) = 0 := by
  rw [Ideal.scalar_sitofp_def]
  have h : (0#32 : BitVec 32).toInt = 0 := by decide
  rw [h]
  simp

/-- The prediction image inside its border of zeros. -/
theorem pay5_apply (v3 : Vec Ideal S1x1x1024x1024 .f32) (R C : Fin 1028) :
    k0_pay5 v3 (ix2 R C) = bordered 0 (blkImg v3) R.val C.val := by
  unfold k0_pay5
  refine (concat_border_apply (Scalar.sitofp (F := Ideal) .f32 (0#32 : BitVec 32)) (k0_pay3 v3) _ _ _ _ R C).trans ?_
  rw [sitofp_zero]
  exact congrArg (fun P => bordered 0 P R.val C.val) (funext fun r => funext fun c => pay3_apply v3 r c)

/-- A 1024 × 1024 window of the bordered image at offset (dy, dx) reads the bordered image at (r + dy, c + dx). -/
theorem window_apply (w : FVec Ideal S1028x1028 .f32) (dy dx : ℕ) (hdy : dy ≤ 4) (hdx : dx ≤ 4)
    (h : S1028x1028.Slices ![dy, dx] S1024x1024) (r c : Fin 1024) :
    extractStridedSlice S1024x1024 ![dy, dx] w h (ix2 r c)
      = w (ix2 (⟨r.val + dy, by have := r.isLt; omega⟩ : Fin 1028) (⟨c.val + dx, by have := c.isLt; omega⟩ : Fin 1028)) :=
  extractStridedSlice_apply _ w h (ix2 r c) _ (fun a => by
    match a with
    | ⟨0, _⟩ => show r.val + dy = dy + r.val; omega
    | ⟨1, _⟩ => show c.val + dx = dx + c.val; omega)

/-- The window of the bordered prediction image at offset (dy, dx): the neighbour at that offset. -/
theorem window_pay5 (v3 : Vec Ideal S1x1x1024x1024 .f32) (dy dx : ℕ) (hdy : dy ≤ 4) (hdx : dx ≤ 4)
    (h : S1028x1028.Slices ![dy, dx] S1024x1024) (r c : Fin 1024) :
    extractStridedSlice S1024x1024 ![dy, dx] (k0_pay5 v3) h (ix2 r c) = nbr (blkImg v3) dy dx r c :=
  (window_apply (k0_pay5 v3) dy dx hdy hdx h r c).trans (pay5_apply v3 _ _)

/-- The third neighbour (above, to the right). -/
theorem pay7_apply (v3 : Vec Ideal S1x1x1024x1024 .f32) (r c : Fin 1024) :
    k0_pay7 v3 (ix2 r c) = nbr (blkImg v3) 0 4 r c := by
  unfold k0_pay7
  exact window_pay5 v3 0 4 (by omega) (by omega) _ r c

/-- The maximum over the first two neighbours, from 0. -/
theorem pay6_apply (v3 : Vec Ideal S1x1x1024x1024 .f32) (r c : Fin 1024) :
    k0_pay6 v3 (ix2 r c)
      = max (max 0 (dev (blkImg v3 r c) (nbr (blkImg v3) 0 0 r c))) (dev (blkImg v3 r c) (nbr (blkImg v3) 0 2 r c)) := by
  unfold k0_pay6
  show max (max (Ideal.ofBits .f32 0x00000000#32)
      (dev (k0_pay3 v3 (ix2 r c)) (extractStridedSlice S1024x1024 ![0, 0] (k0_pay5 v3) _ (ix2 r c))))
      (dev (k0_pay3 v3 (ix2 r c)) (extractStridedSlice S1024x1024 ![0, 2] (k0_pay5 v3) _ (ix2 r c))) = _
  rw [window_pay5 v3 0 0 (by omega) (by omega), window_pay5 v3 0 2 (by omega) (by omega), pay3_apply,
    Ideal.ofBits_zero_f32]

/-- The cross-entropy term. -/
theorem pay4_apply (v3 v5 : Vec Ideal S1x1x1024x1024 .f32) (r c : Fin 1024) :
    k0_pay4 v3 v5 (ix2 r c) = bce (blkImg v5 r c) (blkImg v3 r c) := by
  unfold k0_pay4
  show Ideal.ofBits .f32 0x00000000#32
      - (shapeCast S1024x1024 v5 _ (ix2 r c) * max (Ideal.log (k0_pay3 v3 (ix2 r c))) (Ideal.ofBits .f32 0xC2C80000#32)
        + (Ideal.ofBits .f32 0x3F800000#32 - shapeCast S1024x1024 v5 _ (ix2 r c))
          * max (Ideal.log1p (Ideal.ofBits .f32 0x00000000#32 - k0_pay3 v3 (ix2 r c))) (Ideal.ofBits .f32 0xC2C80000#32)) = _
  have e5 : shapeCast S1024x1024 v5 shapeCasts_S1x1x1024x1024_S1024x1024 (ix2 r c) = blkImg v5 r c := pay3_apply v5 r c
  rw [e5, pay3_apply, Ideal.ofBits_zero_f32, zero_sub, zero_sub]
  rfl

/-- The rest of the maximum (six more neighbours), the gate, and the cross-entropy term added: the pixel's loss, for ANY
    values of the five arrays the second half of the body receives from its first half. -/
theorem tail_apply (v4 v21 : FVec Ideal S1024x1024 .f32) (v30 : FVec Ideal S1028x1028 .f32) (v39 v40 : FVec Ideal S1024x1024 .f32)
    (v74 : Vec Ideal S1x1 .f32) (u w : Fin 1) :
    k0_pay1 v4 v21 v30 v39 v40 v74 (ix2 u w)
      = v74 (ix2 u w) + ∑ r : Fin 1024, ∑ c : Fin 1024,
          (max (max (max (max (max (max (v39 (ix2 r c))
            (dev (v4 (ix2 r c)) (v40 (ix2 r c))))
            (dev (v4 (ix2 r c)) (extractStridedSlice S1024x1024 ![2, 0] v30 slices_S1028x1028_o2_0_S1024x1024 (ix2 r c))))
            (dev (v4 (ix2 r c)) (extractStridedSlice S1024x1024 ![2, 4] v30 slices_S1028x1028_o2_4_S1024x1024 (ix2 r c))))
            (dev (v4 (ix2 r c)) (extractStridedSlice S1024x1024 ![4, 0] v30 slices_S1028x1028_o4_0_S1024x1024 (ix2 r c))))
            (dev (v4 (ix2 r c)) (extractStridedSlice S1024x1024 ![4, 2] v30 slices_S1028x1028_o4_2_S1024x1024 (ix2 r c))))
            (dev (v4 (ix2 r c)) (extractStridedSlice S1024x1024 ![4, 4] v30 slices_S1028x1028_o4_4_S1024x1024 (ix2 r c)))
            * gate (v4 (ix2 r c)) + v21 (ix2 r c)) := by
  unfold k0_pay1
  refine congrArg₂ (· + ·) (congrFun (shapeCast_self v74 _) (ix2 u w)) ?_
  refine (shapeCast_apply _ _ (ix2 u w) (ix1 (0 : Fin 1)) (by
    rw [Shape.rowMajor_val_one, Shape.rowMajor_val_two]
    show 0 = u.val * 1 + w.val
    have := u.isLt; have := w.isLt; omega)).trans ?_
  refine (Cert.Lib.TileStats.colSum_f32_apply _ _ _ _ (0 : Fin 1)).trans ?_
  refine Finset.sum_congr rfl fun r _ => ?_
  refine (Cert.Lib.RowOps.shapeCast_a_a1_apply _ _ r (0 : Fin 1)).trans ?_
  refine (Cert.Lib.RowOps.rowSum_f32_apply _ _ _ _ r).trans ?_
  refine Finset.sum_congr rfl fun c _ => ?_
  show _ * Scalar.select (Ideal.cmp .oge (v4 (ix2 r c)) (Ideal.ofBits .f32 0x3F000000#32)) (v4 (ix2 r c)) (Ideal.ofBits .f32 0x00000000#32)
      + v21 (ix2 r c) = _
  rw [Ideal.ofBits_zero_f32]
  rfl

/-- What one grid point stores, read at the output block's index: the running value it found plus the sum of the image
    pair's pixel losses. -/
theorem stored_apply (yt yp : Vec Ideal S1x1x1024x1024 .f32) (acc : Vec Ideal S1x1 .f32) (u w : Fin 1) :
    k0_pay1 (k0_pay3 yp) (k0_pay4 yp yt) (k0_pay5 yp) (k0_pay6 yp) (k0_pay7 yp) acc (ix2 u w)
      = acc (ix2 u w) + imageSum (blkImg yt) (blkImg yp) := by
  rw [tail_apply]
  refine congrArg (acc (ix2 u w) + ·) ?_
  unfold imageSum
  refine Finset.sum_congr rfl fun r _ => Finset.sum_congr rfl fun c _ => ?_
  rw [window_pay5 yp 2 0 (by omega) (by omega), window_pay5 yp 2 4 (by omega) (by omega),
    window_pay5 yp 4 0 (by omega) (by omega), window_pay5 yp 4 2 (by omega) (by omega),
    window_pay5 yp 4 4 (by omega) (by omega), pay6_apply, pay7_apply, pay4_apply, pay3_apply]
  rfl

end Cert.KernelIdeal.PayValue

end
-- ==== Proof.KernelRun.lean ====
/-
  The kernel's run at the extended reals, read as a value.

  The grid has sixteen points, one per image. The output block never moves: point 0 sets it to zero and adds image 0's
  sum of pixel losses, each later point adds its own image's sum to what the point before left, and the block is
  written back once, after point 15. So after point `n` it holds the sum of the first `n + 1` images' sums (by
  induction on the point), the written-back array holds the sum over all sixteen images, and the two host operations
  after the region divide that by 2²⁴: the mean pixel loss.
-/
import proofs.«122690_j28776280883544_1_alg».proof.Proof.Gen.KernelIdeal.Frame
import proofs.«122690_j28776280883544_1_alg».proof.Proof.KernelPay
import proofs.«122690_j28776280883544_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RunValue

open Idealize.ShloMosaic.ValueIdx
open Cert.KernelIdeal Cert.KernelIdeal.Gen Cert.PixLoss Cert.KernelIdeal.PayValue

theorem hz2 : (![0, 0] : Fin 2 → Nat) = fun _ => 0 := funext fun a => by fin_cases a <;> rfl
theorem hz4 : (![0, 0, 0, 0] : Fin 4 → Nat) = fun _ => 0 := funext fun a => by fin_cases a <;> rfl

section Pieces
variable {F : FTy → Type} [FloatOps F]

/-- A later point (1 … 15) leaves, in the output block holding `acc`, the body's one store: the payload of the two
    input blocks and `acc`. -/
theorem out_B (c : Dev nD) (i : grid0.Coords) (arg1 : Memref sig .tc .vmem S1x1x1024x1024 .f32) (harg1 : arg1.IsWhole)
    (arg2 : Memref sig .tc .vmem S1x1x1024x1024 .f32) (harg2 : arg2.IsWhole) (arg3 : Memref sig .tc .vmem S1x1 .f32) (harg3 : arg3.IsWhole)
    (hc0 : ¬cond0_0 i) (x0 x1 : Vec F S1x1x1024x1024 .f32) (acc : Vec F S1x1 .f32) :
    out0_B_2 c i arg1 harg1 arg2 harg2 arg3 harg3 hc0 x0 x1 acc
      = k0_pay1 (k0_pay3 x1) (k0_pay4 x1 x0) (k0_pay5 x1) (k0_pay6 x1) (k0_pay7 x1) acc := by
  unfold out0_B_2
  rw [View.read_writes_eq_canon _ _ _ (cover0_B_2 c i arg1 harg1 arg2 harg2 arg3 harg3 hc0 x0 x1 acc)]
  unfold kernelRun0_B
  dsimp only
  sl_unfold_words
  rw [View.canon_unit_zero hz2]
  simp only [View.readAt_eq_ld, harg1.read_unread, harg2.read_unread, harg3.read_unread,
    View.ld_unit_zero (S := S1x1x1024x1024) hz4, View.ld_unit_zero (S := S1x1) hz2]

/-- The first point stores zeros, reads them back, and leaves the payload of the two input blocks and those zeros. -/
theorem out_A (c : Dev nD) (i : grid0.Coords) (arg1 : Memref sig .tc .vmem S1x1x1024x1024 .f32) (harg1 : arg1.IsWhole)
    (arg2 : Memref sig .tc .vmem S1x1x1024x1024 .f32) (harg2 : arg2.IsWhole) (arg3 : Memref sig .tc .vmem S1x1 .f32) (harg3 : arg3.IsWhole)
    (hc0 : cond0_0 i) (x0 x1 : Vec F S1x1x1024x1024 .f32) :
    out0_A_2 c i arg1 harg1 arg2 harg2 arg3 harg3 hc0 x0 x1
      = k0_pay1 (k0_pay3 x1) (k0_pay4 x1 x0) (k0_pay5 x1) (k0_pay6 x1) (k0_pay7 x1) (k0_pay2 (F := F)) := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S1x1) hz2, View.readCov_unit_zero (S := S1x1) _ hz2]
  simp only [View.readAt_eq_ld, harg1.read_unread, harg2.read_unread,
    View.ld_unit_zero (S := S1x1x1024x1024) hz4]

end Pieces

variable (m : (ℓ : Loc nD τ sig) → Buf (Elt Ideal) ℓ) (ρ : Dev nD → PrngReg)

/-- The target stack and the prediction stack as the region finds them on core `c`. -/
abbrev argT (c : Dev nD) : Stack := V m c main_arg0
abbrev argP (c : Dev nD) : Stack := V m c main_arg1

/-- Where the two input windows' blocks sit at each point: block `t` along the first axis. -/
theorem idx_facts0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx_facts1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- The target block at point `t` is image `t` of the target stack. -/
theorem blk0_eq (c : Dev nD) (t : Fin cfg0.N) (ht : t.val < 16) :
    blkImg (iblk m c 0 t) = img (argT m c) ⟨t.val, ht⟩ := by
  have hi := idx_facts0 t
  funext r q
  unfold blkImg img iblk
  rw [View.read_apply]
  show V m c main_arg0 _ = V m c main_arg0 _
  refine congrArg (V m c main_arg0) (funext fun a => Fin.ext ?_)
  match a with
  | ⟨0, _⟩ => show win0_0.index t 0 * 1 + 1 * 0 = t.val; rw [hi.1]; omega
  | ⟨1, _⟩ => show win0_0.index t 1 * 1 + 1 * 0 = 0; rw [hi.2.1]
  | ⟨2, _⟩ => show win0_0.index t 2 * 1024 + 1 * r.val = r.val; rw [hi.2.2.1]; omega
  | ⟨3, _⟩ => show win0_0.index t 3 * 1024 + 1 * q.val = q.val; rw [hi.2.2.2]; omega

/-- The prediction block at point `t` is image `t` of the prediction stack. -/
theorem blk1_eq (c : Dev nD) (t : Fin cfg0.N) (ht : t.val < 16) :
    blkImg (iblk m c 1 t) = img (argP m c) ⟨t.val, ht⟩ := by
  have hi := idx_facts1 t
  funext r q
  unfold blkImg img iblk
  rw [View.read_apply]
  show V m c main_arg1 _ = V m c main_arg1 _
  refine congrArg (V m c main_arg1) (funext fun a => Fin.ext ?_)
  match a with
  | ⟨0, _⟩ => show win0_1.index t 0 * 1 + 1 * 0 = t.val; rw [hi.1]; omega
  | ⟨1, _⟩ => show win0_1.index t 1 * 1 + 1 * 0 = 0; rw [hi.2.1]
  | ⟨2, _⟩ => show win0_1.index t 2 * 1024 + 1 * r.val = r.val; rw [hi.2.2.1]; omega
  | ⟨3, _⟩ => show win0_1.index t 3 * 1024 + 1 * q.val = q.val; rw [hi.2.2.2]; omega

/-- The image pair a point sees adds up to that image's sum. -/
theorem point_sum (c : Dev nD) (t : Fin cfg0.N) :
    imageSum (blkImg (iblk m c 0 t)) (blkImg (iblk m c 1 t)) = imageSumN (argT m c) (argP m c) t.val := by
  have ht : t.val < 16 := lt_of_lt_of_eq t.isLt (show cfg0.N = 16 from N_0)
  rw [blk0_eq m c t ht, blk1_eq m c t ht]
  unfold imageSumN
  rw [dif_pos ht]

/-- After point `n` the output block holds the sum of the first `n + 1` images' sums. -/
theorem outsAt_eq (c : Dev nD) : ∀ (n : ℕ) (h : n < cfg0.N) (u w : Fin 1),
    outsAt0 m c n h (ix2 u w) = ∑ k ∈ Finset.range (n + 1), imageSumN (argT m c) (argP m c) k
  | 0, h, u, w => by
    rw [outsAt0_A m c ⟨0, h⟩ rfl, out_A]
    refine (stored_apply (iblk m c 0 ⟨0, h⟩) (iblk m c 1 ⟨0, h⟩) _ u w).trans ?_
    rw [point_sum m c ⟨0, h⟩, Finset.sum_range_one]
    show Ideal.ofBits .f32 0x00000000#32 + _ = _
    rw [Ideal.ofBits_zero_f32, zero_add]
  | n + 1, h, u, w => by
    have hN : cfg0.N = 16 := N_0
    have hB : ¬(⟨n + 1, h⟩ : Fin cfg0.N).val % 16 = 0 := by dsimp only; omega
    rw [outsAt0_B m c ⟨n + 1, h⟩ hB, out_B]
    refine (stored_apply (iblk m c 0 ⟨n + 1, h⟩) (iblk m c 1 ⟨n + 1, h⟩) _ u w).trans ?_
    rw [point_sum m c ⟨n + 1, h⟩, Finset.sum_range_succ _ (n + 1)]
    exact congrArg (· + imageSumN (argT m c) (argP m c) (n + 1)) (outsAt_eq c n (Nat.lt_of_succ_lt h) u w)

/-- All sixteen images' sums. -/
def totalSum (c : Dev nD) : EReal := ∑ b : Fin 16, imageSum (img (argT m c) b) (img (argP m c) b)

/-- The same as contents of the [1, 1] result array. -/
def total (c : Dev nD) : Buf (Elt Ideal) ((c : Thread nD τ).loc main_v0) := fun _ => (totalSum m c : EReal)

/-- The one write-back, after point 15, writes the total. -/
theorem flushed_eq (c : Dev nD) (t : Fin cfg0.N) (hf : (cfg0.win 2).flush t = true) :
    (dats m 0 c).flushed 2 t = ((cfg0.win 2).blk t).view.read (Elt Ideal) (total m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  have e : outsAt0 m c t0_15.val t0_15.isLt = total m c := funext fun j => by
    obtain ⟨u, w, rfl⟩ : ∃ u w : Fin 1, j = ix2 u w := ⟨j 0, j 1, eq_ix2 j⟩
    exact (outsAt_eq m c 15 (by rw [hN]; decide) u w).trans (sum_imageSumN (argT m c) (argP m c))
  rw [e]
  have hz' : (fun a => win0_2.index t0_15 a * main_v0.ty.shape.size a) = fun _ => 0 := funext fun a => by fin_cases a <;> decide
  exact (Memref.read_access_unit_zero (Elt Ideal) main_v0 hz' (fun a => by rw [congrFun hz' a]; simp) (total m c)).symm

/-- So the result array ends holding the total. -/
theorem final_o (c : Dev nD) : (dats m 0 c).arrAt 2 cfg0.N = total m c :=
  (dats m 0 c).arrAt_eq_of_cover 2 (total m c) (flushed_eq m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- The two host operations after the region, a reshape to a scalar and a division by 2²⁴, give the mean pixel loss. -/
theorem tail_eq (c : Dev nD) :
    Pipeline.afterTail₀ cfgs (dats m) 0 (V0 m) [hostOps1] c main_v2 = fun _ => meanLoss (argT m c) (argP m c) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = total m c :=
    (Pipeline.withArrays_arr spec0 launch0.win.arr_inj c _ _ 2).trans (final_o m c)
  rw [hA]
  funext i
  rfl

/-- The run, read: the result at the mean pixel loss of the two argument stacks, the arguments unchanged. -/
theorem run : θ_run defs (onTc (τ := τ) (main (F := Ideal))) ⟨m, fun _ => 0, ρ⟩ fun r => ∀ c : Dev nD,
      r.2.mem ((c.tc : Thread nD τ).loc main_v2)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.LibSumIdx4.lean ====
/-
  A sum over every index of an array with one unit axis, as an iterated sum over its other coordinates.

  * An index of an `[n0, 1, n2, n3]` array is the triple of its three non-unit coordinates.
  * So a sum over all its indices is the sum over the first coordinate of the sums over the third of the sums
    over the fourth, in any additive commutative monoid.
-/
import Idealize.ShloMosaic.Lib.ValueIdx
import Mathlib.Algebra.BigOperators.Fin

noncomputable section

namespace Cert.Lib.SumIdx4

open Idealize.ShloMosaic Idealize.ShloMosaic.ValueIdx

/-- An index of an `[n0, 1, n2, n3]` array is its coordinates on axes 0, 2 and 3: the coordinate on the unit axis is 0. -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact (Fin.ext (Nat.lt_one_iff.mp (i 1).isLt)).symm
    | ⟨2, _⟩ => rfl
    | ⟨3, _⟩ => rfl
  right_inv _ := rfl

/-- A sum over every index of an `[n0, 1, n2, n3]` array is the triple sum over its three non-unit coordinates. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

end Cert.Lib.SumIdx4

end
-- ==== Proof.RefValue.lean ====
/-
  The reference's result at the extended reals: the mean pixel loss.

  The reference works on the whole stack of sixteen images at once. Its loss array at (b, 0, r, c) is the pixel loss of
  image `b` at (r, c): the padded prediction stack read through a window at offset (dy, dx) is the neighbour of that
  pixel at that offset, and every other step acts entry by entry. Its result is the sum of the loss array over every
  index, from 0, divided by 2²⁴.
-/
import proofs.«122690_j28776280883544_1_alg».proof.Proof.Gen.ReferenceIdeal.Read
import proofs.«122690_j28776280883544_1_alg».proof.Proof.Spec
import proofs.«122690_j28776280883544_1_alg».proof.Proof.LibSumIdx4
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Read Cert.PixLoss

/-- The padding value, the integer 0 converted to a float, is the real number 0. -/
theorem pad_value_zero : val_main_call0_v0 (F := Ideal) ix0 = 0 := by
  show (((0#32 : BitVec 32).toInt : ℝ) : EReal) = 0
  have h : (0#32 : BitVec 32).toInt = 0 := by decide
  rw [h]
  simp

/-- The padded prediction stack at image `b`: that image inside its border of zeros. -/
theorem padded_at (P : Stack) (b : Fin 16) (R C : Fin 1028) :
    val_main_v13 (F := Ideal) P (ix4 b (0 : Fin 1) R C) = bordered 0 (img P b) R.val C.val := by
  unfold val_main_v13
  refine (pad_border_apply (val_main_call0_v0 (F := Ideal)) P _ _ b (0 : Fin 1) R C).trans ?_
  rw [pad_value_zero]
  rfl

/-- A window of the padded stack at offset (dy, dx) on the last two axes reads it at (b, 0, r + dy, c + dx). -/
theorem window_apply (w : FVec Ideal S16x1x1028x1028 .f32) (dy dx : ℕ) (hdy : dy ≤ 4) (hdx : dx ≤ 4)
    (h : S16x1x1028x1028.Slices ![0, 0, dy, dx] S16x1x1024x1024) (b : Fin 16) (r c : Fin 1024) :
    extractStridedSlice S16x1x1024x1024 ![0, 0, dy, dx] w h (ix4 b (0 : Fin 1) r c)
      = w (ix4 b (0 : Fin 1) (⟨r.val + dy, by have := r.isLt; omega⟩ : Fin 1028) (⟨c.val + dx, by have := c.isLt; omega⟩ : Fin 1028)) :=
  extractStridedSlice_apply _ w h (ix4 b (0 : Fin 1) r c) _ (fun a => by
    match a with
    | ⟨0, _⟩ => show b.val = 0 + b.val; omega
    | ⟨1, _⟩ => show 0 = 0 + 0; omega
    | ⟨2, _⟩ => show r.val + dy = dy + r.val; omega
    | ⟨3, _⟩ => show c.val + dx = dx + c.val; omega)

/-- So a window of the padded prediction stack is the neighbour at that offset. -/
theorem window_padded (P : Stack) (dy dx : ℕ) (hdy : dy ≤ 4) (hdx : dx ≤ 4)
    (h : S16x1x1028x1028.Slices ![0, 0, dy, dx] S16x1x1024x1024) (b : Fin 16) (r c : Fin 1024) :
    extractStridedSlice S16x1x1024x1024 ![0, 0, dy, dx] (val_main_v13 (F := Ideal) P) h (ix4 b (0 : Fin 1) r c)
      = nbr (img P b) dy dx r c :=
  (window_apply _ dy dx hdy hdx h b r c).trans (padded_at P b _ _)

/-- The loss array at (b, 0, r, c) is image `b`'s pixel loss at (r, c). -/
theorem loss_apply (T P : Stack) (b : Fin 16) (r c : Fin 1024) :
    val_main_v51 (F := Ideal) T P (ix4 b (0 : Fin 1) r c) = pixel (img T b) (img P b) r c := by
  simp only [val_main_v51_apply, val_main_v50_apply, val_main_v49_apply, val_main_call1_v1_apply, val_main_call1_v0_apply, val_main_cst_4_apply, val_main_v48_apply, val_main_v47_apply, val_main_cst_3_apply, val_main_v46_apply, val_main_v45_apply, val_main_v44_apply, val_main_v42_apply, val_main_v41_apply, val_main_v40_apply, val_main_v38_apply, val_main_v37_apply, val_main_v36_apply, val_main_v34_apply, val_main_v33_apply, val_main_v32_apply, val_main_v30_apply, val_main_v29_apply, val_main_v28_apply, val_main_v26_apply, val_main_v25_apply, val_main_v24_apply, val_main_v22_apply, val_main_v21_apply, val_main_v20_apply, val_main_v18_apply, val_main_v17_apply, val_main_v16_apply, val_main_v14_apply, val_main_cst_2_apply, val_main_v12_apply, val_main_v11_apply, val_main_v10_apply, val_main_v9_apply, val_main_v8_apply, val_main_cst_1_apply, val_main_v7_apply, val_main_v6_apply, val_main_v5_apply, val_main_cst_0_apply, val_main_v4_apply, val_main_v3_apply, val_main_v2_apply, val_main_v1_apply, val_main_cst_apply, val_main_v0_apply]
  unfold val_main_v15 val_main_v19 val_main_v23 val_main_v27 val_main_v31 val_main_v35 val_main_v39 val_main_v43
  rw [window_padded P 0 0 (by omega) (by omega), window_padded P 0 2 (by omega) (by omega),
    window_padded P 0 4 (by omega) (by omega), window_padded P 2 0 (by omega) (by omega),
    window_padded P 2 4 (by omega) (by omega), window_padded P 4 0 (by omega) (by omega),
    window_padded P 4 2 (by omega) (by omega), window_padded P 4 4 (by omega) (by omega)]
  simp only [Ideal.ofBits_def, Ideal.ofBits_zero_f32]
  rfl

/-- The reference's result: the mean pixel loss of the two stacks. -/
theorem result_eq (T P : Stack) : val_main_v53 (F := Ideal) T P = fun _ => meanLoss T P := by
  funext i
  rw [val_main_v53_apply, val_main_v52_apply, val_main_cst_5_apply, val_main_cst_6_apply]
  simp only [Ideal.hostDivf_def, Ideal.ofBits_def, Ideal.ofBits_zero_f32, zero_add]
  unfold meanLoss
  refine congrArg (fun s => Ideal.div s (Ideal.ofBits .f32 0x4B800000#32)) ?_
  refine (Cert.Lib.SumIdx4.sum_idx4u (n0 := 16) (n2 := 1024) (n3 := 1024) _).trans ?_
  refine Finset.sum_congr rfl fun b _ => ?_
  unfold imageSum
  exact Finset.sum_congr rfl fun r _ => Finset.sum_congr rfl fun c _ => loss_apply T P b r c

end Cert.ReferenceIdeal.RefValue

end
-- ==== Proof.lean ====
/-
  The mean of a per-pixel loss over sixteen 1024 × 1024 images, computed two ways, is one extended real.

  The loss at a pixel is `spread · gate + bce`: the largest absolute difference between the prediction there and its
  eight neighbours two pixels away (zero beyond the image's edge), times the prediction where it is at least one half,
  plus a cross-entropy term with its logarithms clamped at -100 (Proof/Spec.lean).

  The kernel visits one image per grid point. It borders the prediction image with two rows and columns of zeros by
  four concatenations, forms the pixel losses, adds each row up and then the row sums, and adds that to a [1, 1] block
  that it zeroes at the first point and writes back after the last; two host operations then reshape the block to a
  scalar and divide it by 2²⁴. The reference pads the whole stack at once, forms the same pixel losses entry by entry,
  sums the loss array over every index, and divides by 2²⁴.

  At the extended reals every step that acts entry by entry is the same function on both sides (the kernel's `0 - x`
  is the reference's `-x`), so the two loss arrays agree pixel by pixel (Proof/KernelPay.lean, Proof/RefValue.lean).
  The sums differ only in the order and grouping of a finite sum — rows, then images one after the other, against all
  indices at once — and addition of extended reals is commutative and associative, so they are equal with no
  assumption on the inputs (Proof/KernelRun.lean: the running total after point `n` is the sum of the first `n + 1`
  images' sums, by induction on the point). The idealization rewrote nothing, so its conjunct is `True`; the three
  frames are the generated frame runs and the reference's generated run.
-/
import proofs.«122690_j28776280883544_1_alg».proof.Defs
import proofs.«122690_j28776280883544_1_alg».proof.Proof.Gen.Kernel
import proofs.«122690_j28776280883544_1_alg».proof.Proof.Gen.Kernel.Frame
import proofs.«122690_j28776280883544_1_alg».proof.Proof.Gen.KernelIdeal
import proofs.«122690_j28776280883544_1_alg».proof.Proof.Gen.KernelIdeal.Frame
import proofs.«122690_j28776280883544_1_alg».proof.Proof.Gen.ReferenceIdeal
import proofs.«122690_j28776280883544_1_alg».proof.Proof.Gen.Pre_finite_inputs
import proofs.«122690_j28776280883544_1_alg».proof.Proof.Gen.ReferenceIdeal.Run
import proofs.«122690_j28776280883544_1_alg».proof.Proof.Gen.ReferenceIdeal.Read
import proofs.«122690_j28776280883544_1_alg».proof.Proof.KernelRun
import proofs.«122690_j28776280883544_1_alg».proof.Proof.RefValue
import Idealize.ShloMosaic.Adequacy
import Idealize.ShloMosaic.Init

noncomputable section

namespace Cert.Proof

open Idealize.ShloMosaic Idealize.SL.Sem Cert.PixLoss

/-- The word-level kernel runs and leaves its arguments unchanged: its generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the two argument stacks both programs end with the mean pixel loss of those stacks. -/
theorem algebraic : Cert.algebraic_KernelIdeal_ReferenceIdeal := by
  intro m ρ m' ρ' _ hagree
  refine ⟨fun c _ => meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
